-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x1024 : Shape := ⟨3, ![512, 512, 1024]⟩
abbrev S3x1024 : Shape := ⟨2, ![3, 1024]⟩
abbrev S3 : Shape := ⟨1, ![3]⟩
abbrev S4096x1536 : Shape := ⟨2, ![4096, 1536]⟩
abbrev S_ : Shape := ⟨0, ![]⟩

class Facts : Prop where
  bcast_S_S512x512x1024 : S_.BroadcastsInDim S512x512x1024 (![] : Fin 0 → Fin S512x512x1024.rank)
  reducesTo_S512x512x1024_S_d0_1_2 : S512x512x1024.ReducesTo [0, 1, 2] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S4096x1536 : S_.BroadcastsInDim S4096x1536 (![] : Fin 0 → Fin S4096x1536.rank)
  reducesTo_S4096x1536_S_d0_1 : S4096x1536.ReducesTo [0, 1] S_

variable [Facts]

def fn_part1 {F : FTy → Type} [FloatOps F] (main_arg4 : FVec F S3 .f32) (main_arg5 : FVec F S4096x1536 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S4096x1536 .f32 := Host.absf main_arg5
  let main_cst_8 : FVec F S_ .f32 := constant S_ .f32 0x7F800000#32
  let main_v25 : FVec F S4096x1536 .f32 := broadcastInDim S4096x1536 ![] bcast_S_S4096x1536 main_cst_8
  let main_v26 : IVec S4096x1536 1 := cmpf .olt main_v24 main_v25
  let main_c_9 : IVec S_ 1 := constantI S_ 1 1#1
  let main_v27 : IVec S_ 1 := (fun x v => Host.reduce IntOp.andi x v reducesTo_S4096x1536_S_d0_1 h_S_) main_v26 main_c_9
  let main_v28 : IVec S_ 1 := andi main_v23 main_v27
  main_v28

def fn {F : FTy → Type} [FloatOps F] (main_arg0 : FVec F S512x512x1024 .f32) (main_arg1 : FVec F S3x1024 .f32) (main_arg2 : FVec F S3 .f32) (main_arg3 : FVec F S3 .f32) (main_arg4 : FVec F S3 .f32) (main_arg5 : FVec F S4096x1536 .f32) : IVec S_ 1 :=
  let main_v0 : FVec F S512x512x1024 .f32 := Host.absf main_arg0
  let main_cst : FVec F S_ .f32 := constant S_ .f32 0x7F800000#32
  let main_v1 : FVec F S512x512x1024 .f32 := broadcastInDim S512x512x1024 ![] bcast_S_S512x512x1024 main_cst
  let main_v2 : IVec S512x512x1024 1 := cmpf .olt main_v0 main_v1
  let main_c : IVec S_ 1 := constantI S_ 1 1#1
  let main_v3 : IVec S_ 1 := (fun x v => Host.reduce IntOp.andi x v reducesTo_S512x512x1024_S_d0_1_2 h_S_) main_v2 main_c
  let main_v4 : FVec F S3x1024 .f32 := Host.absf main_arg1
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_v13 main_v16
-- ==== Kernel.lean ====
abbrev S512x512x1024 : Shape := ⟨3, ![512, 512, 1024]⟩
abbrev S3x1024 : Shape := ⟨2, ![3, 1024]⟩
abbrev S3 : Shape := ⟨1, ![3]⟩
abbrev S4096x1536 : Shape := ⟨2, ![4096, 1536]⟩
abbrev S1x3x1 : Shape := ⟨3, ![1, 3, 1]⟩
abbrev S512x3x512 : Shape := ⟨3, ![512, 3, 512]⟩
abbrev S16x128x1024 : Shape := ⟨3, ![16, 128, 1024]⟩
abbrev S16x3x128 : Shape := ⟨3, ![16, 3, 128]⟩
abbrev S1x3x1024 : Shape := ⟨3, ![1, 3, 1024]⟩
abbrev S16x3x1024 : Shape := ⟨3, ![16, 3, 1024]⟩
abbrev S_ : Shape := ⟨0, ![]⟩
abbrev S512x1536 : Shape := ⟨2, ![512, 1536]⟩
abbrev S512x4096 : Shape := ⟨2, ![512, 4096]⟩
abbrev S512x512 : Shape := ⟨2, ![512, 512]⟩

abbrev nBuf : Space → Nat
  | .hbm => 39
  | .vmem => 11
  | .smem => 0
  | _ => 0

abbrev bufTy : (tb : Table) → Fin (tcTables nBuf tb) → BufTy
  | .hbm, ⟨0, _⟩ => ⟨S512x512x1024, .f32⟩
  | .hbm, ⟨1, _⟩ => ⟨S3x1024, .f32⟩
  | .hbm, ⟨2, _⟩ => ⟨S3, .f32⟩
  | .hbm, ⟨3, _⟩ => ⟨S3, .f32⟩
  | .hbm, ⟨4, _⟩ => ⟨S3, .f32⟩
  | .hbm, ⟨5, _⟩ => ⟨S4096x1536, .f32⟩
  | .hbm, ⟨6, _⟩ => ⟨S1x3x1, .f32⟩
  | .hbm, ⟨7, _⟩ => ⟨S512x3x512, .f32⟩
  | .hbm, ⟨8, _⟩ => ⟨S_, .f32⟩
  | .hbm, ⟨9, _⟩ => ⟨S3, .f32⟩
  | .hbm, ⟨10, _⟩ => ⟨S1x3x1, .f32⟩
  | .hbm, ⟨11, _⟩ => ⟨S_, .f32⟩
  | .hbm, ⟨12, _⟩ => ⟨S1x3x1, .f32⟩
  | .hbm, ⟨13, _⟩ => ⟨S1x3x1, .f32⟩
  | .hbm, ⟨14, _⟩ => ⟨S512x3x512, .f32⟩
  | .hbm, ⟨15, _⟩ => ⟨S512x3x512, .f32⟩
  | .hbm, ⟨16, _⟩ => ⟨S512x3x512, .f32⟩
  | .hbm, ⟨17, _⟩ => ⟨S_, .f32⟩
  | .hbm, ⟨18, _⟩ => ⟨S3, .f32⟩
  | .hbm, ⟨19, _⟩ => ⟨S1x3x1, .f32⟩
  | .hbm, ⟨20, _⟩ => ⟨S_, .f32⟩
  | .hbm, ⟨21, _⟩ => ⟨S1x3x1, .f32⟩
  | .hbm, ⟨22, _⟩ => ⟨S1x3x1, .f32⟩
  | .hbm, ⟨23, _⟩ => ⟨S512x3x512, .f32⟩
  | .hbm, ⟨24, _⟩ => ⟨S512x3x512, .f32⟩
  | .hbm, ⟨25, _⟩ => ⟨S_, .f32⟩
  | .hbm, ⟨26, _⟩ => ⟨S1x3x1, .f32⟩
  | .hbm, ⟨27, _⟩ => ⟨S1x3x1, .f32⟩
  | .hbm, ⟨28, _⟩ => ⟨S1x3x1, .f32⟩
  | .hbm, ⟨29, _⟩ => ⟨S512x3x512, .f32⟩
  | .hbm, ⟨30, _⟩ => ⟨S512x3x512, .f32⟩
  | .hbm, ⟨31, _⟩ => ⟨S1x3x1, .f32⟩
  | .hbm, ⟨32, _⟩ => ⟨S512x3x512, .f32⟩
  | .hbm, ⟨33, _⟩ => ⟨S512x3x512, .f32⟩
  | .hbm, ⟨34, _⟩ => ⟨S1x3x1, .f32⟩
  | .hbm, ⟨35, _⟩ => ⟨S512x3x512, .f32⟩
  | .hbm, ⟨36, _⟩ => ⟨S512x3x512, .f32⟩
  | .hbm, ⟨37, _⟩ => ⟨S512x1536, .f32⟩
  | .hbm, ⟨38, _⟩ => ⟨S512x4096, .f32⟩
  | .local _ .vmem, ⟨0, _⟩ => ⟨S16x128x1024, .f32⟩
  | .local _ .vmem, ⟨1, _⟩ => ⟨S16x128x1024, .f32⟩
  | .local _ .vmem, ⟨2, _⟩ => ⟨S3x1024, .f32⟩
  | .local _ .vmem, ⟨3, _⟩ => ⟨S1x3x1, .f32⟩
  | .local _ .vmem, ⟨4, _⟩ => ⟨S16x3x128, .f32⟩
  | .local _ .vmem, ⟨5, _⟩ => ⟨S16x3x128, .f32⟩
  | .local _ .vmem, ⟨6, _⟩ => ⟨S512x1536, .f32⟩
  | .local _ .vmem, ⟨7, _⟩ => ⟨S512x1536, .f32⟩
  | .local _ .vmem, ⟨8, _⟩ => ⟨S512x1536, .f32⟩
  | .local _ .vmem, ⟨9, _⟩ => ⟨S512x512, .f32⟩
  | .local _ .vmem, ⟨10, _⟩ => ⟨S512x512, .f32⟩
  | _, _ => ⟨S512x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S3_S1x3x1 : S3.ShapeCasts S1x3x1
  inb_S16x128x1024_S16x128x1024_0_0_0 : ∀ a, (![0, 0, 0] : Fin 3 → Nat) a + S16x128x1024.size a ≤ S16x128x1024.size a
  h_S16x128x1024 : 0 < S16x128x1024.numel
  bitsLt_bf16_f32 : FTy.bits .bf16 < FTy.bits .f32
  inb_S3x1024_S3x1024_0_0 : ∀ a, (![0, 0] : Fin 2 → Nat) a + S3x1024.size a ≤ S3x1024.size a
  h_S3x1024 : 0 < S3x1024.numel
  shapeCasts_S3x1024_S1x3x1024 : S3x1024.ShapeCasts S1x3x1024
  shapeCasts_S1x3x1024_S1x3x1024 : S1x3x1024.ShapeCasts S1x3x1024
  broadcasts_S1x3x1024_S16x3x1024 : S1x3x1024.Broadcasts S16x3x1024
  inb_S1x3x1_S1x3x1_0_0_0 : ∀ a, (![0, 0, 0] : Fin 3 → Nat) a + S1x3x1.size a ≤ S1x3x1.size a
  h_S1x3x1 : 0 < S1x3x1.numel
  shapeCasts_S1x3x1_S1x3x1 : S1x3x1.ShapeCasts S1x3x1
  broadcasts_S1x3x1_S16x3x128 : S1x3x1.Broadcasts S16x3x128
  inb_S16x3x128_S16x3x128_0_0_0 : ∀ a, (![0, 0, 0] : Fin 3 → Nat) a + S16x3x128.size a ≤ S16x3x128.size a
  h_S16x3x128 : 0 < S16x3x128.numel
  reducesTo_S512x3x512_S3_d0_2 : S512x3x512.ReducesTo [0, 2] S3
  h_S_ : 0 < S_.numel
  bcast_S3_S1x3x1_1 : S3.BroadcastsInDim S1x3x1 (![1] : Fin 1 → Fin S1x3x1.rank)
  bcast_S_S1x3x1 : S_.BroadcastsInDim S1x3x1 (![] : Fin 0 → Fin S1x3x1.rank)
  bcast_S1x3x1_S512x3x512_0_1_2 : S1x3x1.BroadcastsInDim S512x3x512 (![0, 1, 2] : Fin 3 → Fin S512x3x512.rank)
  shapeCasts_S512x3x512_S512x1536 : S512x3x512.ShapeCasts S512x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x512_S512x512_0_0 : ∀ a, (![0, 0] : Fin 2 → Nat) a + S512x512.size a ≤ S512x512.size a
  h_S512x512 : 0 < S512x512.numel
  dot_S16x3x1024_S16x128x1024_S16x3x128_2_2_1_1_0_0_wf : DotDims.WF S16x3x1024 S16x128x1024 S16x3x128 [2] [2] [1] [1] [0] [0]
  dot_S512x1536_S512x1536_S512x512_1_1_0_0_n_n_wf : DotDims.WF S512x1536 S512x1536 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1024.size a ≤ S512x512x1024.size a
  hwx0_0 : ∀ i : grid0.Coords, EltTy.bits .f32 = 32 ∨ (Rect.block (s := S512x512x1024) S16x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3x1.size a ≤ S1x3x1.size a
  hwx0_2 : ∀ i : grid0.Coords, EltTy.bits .f32 = 32 ∨ (Rect.block (s := S1x3x1) S1x3x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x3x128.size a ≤ S512x3x512.size a
  hwx0_3 : ∀ i : grid0.Coords, EltTy.bits .f32 = 32 ∨ (Rect.block (s := S512x3x512) S16x3x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1536.size a ≤ S512x1536.size a
  hwx1_0 : ∀ i : grid1.Coords, EltTy.bits .f32 = 32 ∨ (Rect.block (s := S512x1536) S512x1536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1536.size a ≤ S4096x1536.size a
  hwx1_1 : ∀ i : grid1.Coords, EltTy.bits .f32 = 32 ∨ (Rect.block (s := S4096x1536) S512x1536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x4096.size a
  hwx1_2 : ∀ i : grid1.Coords, EltTy.bits .f32 = 32 ∨ (Rect.block (s := S512x4096) S512x512.size (cc1_transform_2 i) (hinb1_2 i)).WholeWords (EltTy.packing .f32)

variable [Facts₀]

def dot_S16x3x1024_S16x128x1024_S16x3x128_2_2_1_1_0_0 : DotDims S16x3x1024 S16x128x1024 S16x3x128 where
  lhsContracting := [2]
  rhsContracting := [2]
  lhsNonContracting := [1]
  rhsNonContracting := [1]
  lhsBatch := [0]
  rhsBatch := [0]
  wf := dot_S16x3x1024_S16x128x1024_S16x3x128_2_2_1_1_0_0_wf
def dot_S512x1536_S512x1536_S512x512_1_1_0_0_n_n : DotDims S512x1536 S512x1536 S512x512 where
  lhsContracting := [1]
  rhsContracting := [1]
  lhsNonContracting := [0]
  rhsNonContracting := [0]
  lhsBatch := []
  rhsBatch := []
  wf := dot_S512x1536_S512x1536_S512x512_1_1_0_0_n_n_wf

abbrev win0_0 : Pipeline.Window sig grid0 :=
  Pipeline.Window.ofSpec (Memref.whole main_arg0) S16x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x3x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S512x1536.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x1536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512x1024 : Shape := ⟨3, ![512, 512, 1024]⟩
abbrev S3x1024 : Shape := ⟨2, ![3, 1024]⟩
abbrev S3 : Shape := ⟨1, ![3]⟩
abbrev S4096x1536 : Shape := ⟨2, ![4096, 1536]⟩
abbrev S512x512x3 : Shape := ⟨3, ![512, 512, 3]⟩
abbrev S1x1x3 : Shape := ⟨3, ![1, 1, 3]⟩
abbrev S512x3x512 : Shape := ⟨3, ![512, 3, 512]⟩
abbrev S_ : Shape := ⟨0, ![]⟩
abbrev S1x3x1 : Shape := ⟨3, ![1, 3, 1]⟩
abbrev S512x1536 : Shape := ⟨2, ![512, 1536]⟩
abbrev S1536x4096 : Shape := ⟨2, ![1536, 4096]⟩
abbrev S512x4096 : Shape := ⟨2, ![512, 4096]⟩

abbrev nBuf : Space → Nat
  | .hbm => 43
  | .vmem => 0
  | .smem => 0
  | _ => 0

abbrev bufTy : (tb : Table) → Fin (tcTables nBuf tb) → BufTy
  | .hbm, ⟨0, _⟩ => ⟨S512x512x1024, .f32⟩
  | .hbm, ⟨1, _⟩ => ⟨S3x1024, .f32⟩
  | .hbm, ⟨2, _⟩ => ⟨S3, .f32⟩
  | .hbm, ⟨3, _⟩ => ⟨S3, .f32⟩
  | .hbm, ⟨4, _⟩ => ⟨S3, .f32⟩
  | .hbm, ⟨5, _⟩ => ⟨S4096x1536, .f32⟩
  | .hbm, ⟨6, _⟩ => ⟨S512x512x3, .f32⟩
  | .hbm, ⟨7, _⟩ => ⟨S1x1x3, .f32⟩
  | .hbm, ⟨8, _⟩ => ⟨S512x512x3, .f32⟩
  | .hbm, ⟨9, _⟩ => ⟨S512x512x3, .f32⟩
  | .hbm, ⟨10, _⟩ => ⟨S512x3x512, .f32⟩
  | .hbm, ⟨11, _⟩ => ⟨S_, .f32⟩
  | .hbm, ⟨12, _⟩ => ⟨S3, .f32⟩
  | .hbm, ⟨13, _⟩ => ⟨S1x3x1, .f32⟩
  | .hbm, ⟨14, _⟩ => ⟨S_, .f32⟩
  | .hbm, ⟨15, _⟩ => ⟨S1x3x1, .f32⟩
  | .hbm, ⟨16, _⟩ => ⟨S1x3x1, .f32⟩
  | .hbm, ⟨17, _⟩ => ⟨S512x3x512, .f32⟩
  | .hbm, ⟨18, _⟩ => ⟨S512x3x512, .f32⟩
  | .hbm, ⟨19, _⟩ => ⟨S512x3x512, .f32⟩
  | .hbm, ⟨20, _⟩ => ⟨S_, .f32⟩
  | .hbm, ⟨21, _⟩ => ⟨S3, .f32⟩
  | .hbm, ⟨22, _⟩ => ⟨S1x3x1, .f32⟩
  | .hbm, ⟨23, _⟩ => ⟨S_, .f32⟩
  | .hbm, ⟨24, _⟩ => ⟨S1x3x1, .f32⟩
  | .hbm, ⟨25, _⟩ => ⟨S1x3x1, .f32⟩
  | .hbm, ⟨26, _⟩ => ⟨S512x3x512, .f32⟩
  | .hbm, ⟨27, _⟩ => ⟨S512x3x512, .f32⟩
  | .hbm, ⟨28, _⟩ => ⟨S_, .f32⟩
  | .hbm, ⟨29, _⟩ => ⟨S1x3x1, .f32⟩
  | .hbm, ⟨30, _⟩ => ⟨S1x3x1, .f32⟩
  | .hbm, ⟨31, _⟩ => ⟨S1x3x1, .f32⟩
  | .hbm, ⟨32, _⟩ => ⟨S512x3x512, .f32⟩
  | .hbm, ⟨33, _⟩ => ⟨S512x3x512, .f32⟩
  | .hbm, ⟨34, _⟩ => ⟨S1x3x1, .f32⟩
  | .hbm, ⟨35, _⟩ => ⟨S512x3x512, .f32⟩
  | .hbm, ⟨36, _⟩ => ⟨S512x3x512, .f32⟩
  | .hbm, ⟨37, _⟩ => ⟨S1x3x1, .f32⟩
  | .hbm, ⟨38, _⟩ => ⟨S512x3x512, .f32⟩
  | .hbm, ⟨39, _⟩ => ⟨S512x3x512, .f32⟩
  | .hbm, ⟨40, _⟩ => ⟨S512x1536, .f32⟩
  | .hbm, ⟨41, _⟩ => ⟨S1536x4096, .f32⟩
  | .hbm, ⟨42, _⟩ => ⟨S512x4096, .f32⟩
  | _, _ => ⟨S512x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S3_S1x1x3_2 : S3.BroadcastsInDim S1x1x3 (![2] : Fin 1 → Fin S1x1x3.rank)
  bcast_S1x1x3_S512x512x3_0_1_2 : S1x1x3.BroadcastsInDim S512x512x3 (![0, 1, 2] : Fin 3 → Fin S512x512x3.rank)
  transposes_S512x512x3_S512x3x512_0_2_1 : S512x512x3.Transposes [0, 2, 1] S512x3x512
  reducesTo_S512x3x512_S3_d0_2 : S512x3x512.ReducesTo [0, 2] S3
  h_S_ : 0 < S_.numel
  bcast_S3_S1x3x1_1 : S3.BroadcastsInDim S1x3x1 (![1] : Fin 1 → Fin S1x3x1.rank)
  bcast_S_S1x3x1 : S_.BroadcastsInDim S1x3x1 (![] : Fin 0 → Fin S1x3x1.rank)
  bcast_S1x3x1_S512x3x512_0_1_2 : S1x3x1.BroadcastsInDim S512x3x512 (![0, 1, 2] : Fin 3 → Fin S512x3x512.rank)
  shapeCasts_S512x3x512_S512x1536 : S512x3x512.ShapeCasts S512x1536
  transposes_S4096x1536_S1536x4096_1_0 : S4096x1536.Transposes [1, 0] S1536x4096
  dot_S512x512x1024_S3x1024_S512x512x3_2_1_01_0_n_n_wf : DotDims.WF S512x512x1024 S3x1024 S512x512x3 [2] [1] [0, 1] [0] [] []
  dot_S512x1536_S1536x4096_S512x4096_1_0_0_1_n_n_wf : DotDims.WF S512x1536 S1536x4096 S512x4096 [1] [0] [0] [1] [] []

variable [Facts₀]

def dot_S512x512x1024_S3x1024_S512x512x3_2_1_01_0_n_n : DotDims S512x512x1024 S3x1024 S512x512x3 where
  lhsContracting := [2]
  rhsContracting := [1]
  lhsNonContracting := [0, 1]
  rhsNonContracting := [0]
  lhsBatch := []
  rhsBatch := []
  wf := dot_S512x512x1024_S3x1024_S512x512x3_2_1_01_0_n_n_wf
def dot_S512x1536_S1536x4096_S512x4096_1_0_0_1_n_n : DotDims S512x1536 S1536x4096 S512x4096 where
  lhsContracting := [1]
  rhsContracting := [0]
  lhsNonContracting := [0]
  rhsNonContracting := [1]
  lhsBatch := []
  rhsBatch := []
  wf := dot_S512x1536_S1536x4096_S512x4096_1_0_0_1_n_n_wf

class Facts : Prop extends Facts₀ where

variable [Facts]
-- ==== Proof.LibBatchedProduct.lean ====
/-
  A batched matrix product with both operands contracted on their last axis, read at an entry.

  The operands are [m, a, K] and [m, b, K]; axis 0 of each is the batch, axis 2 of each is contracted, and the
  result is [m, a, b]. At the ideal values the vector unit's product into a zero accumulator, read at sample `p`,
  row `i` and column `j`, is the sum over `k : Fin K` of `l (p, i, k) · r (p, j, k)`: the contraction's one-axis
  index set is re-indexed by its coordinate, and each operand's index at an output index is computed axis by
  axis (the batch coordinate is the output's first, the free coordinate the output's second or third, the
  contracted coordinate the contraction's).
-/
import Idealize.ShloMosaic.PureOps.Ideal.Laws
import Idealize.ShloMosaic.Lib.ValueIdx

noncomputable section

open scoped BigOperators

namespace Idealize.ShloMosaic.BatchedProduct

open Idealize.ShloMosaic Idealize.ShloMosaic.ValueIdx

variable {m a b K : Nat}

/-- The dimension numbers in question: contract axis 2 of both operands, batch over axis 0 of both. -/
structure IsBatchedLast (d : DotDims ⟨3, ![m, a, K]⟩ ⟨3, ![m, b, K]⟩ ⟨3, ![m, a, b]⟩) : Prop where
  lc : d.lhsContracting = [2]
  rc : d.rhsContracting = [2]
  ln : d.lhsNonContracting = [1]
  rn : d.rhsNonContracting = [1]
  lb : d.lhsBatch = [0]
  rb : d.rhsBatch = [0]

variable {d : DotDims ⟨3, ![m, a, K]⟩ ⟨3, ![m, b, K]⟩ ⟨3, ![m, a, b]⟩}

theorem rank_contr_one (h : IsBatchedLast d) : d.contr.rank = 1 := by
  rw [d.rank_contr, h.lc]; rfl

/-- The left operand's sample is the output's. -/
theorem lhs_batch (h : IsBatchedLast d) (i : (⟨3, ![m, a, b]⟩ : Shape).Idx) (q : d.contr.Idx) :
    (d.lhsIdx i q 0).val = (i 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_pos (show (0 : Fin 3) ∈ ([0] : List (Fin 3)) from List.mem_singleton.mpr rfl)]
  rfl

/-- The left operand's row is the output's row. -/
theorem lhs_row (h : IsBatchedLast d) (i : (⟨3, ![m, a, b]⟩ : Shape).Idx) (q : d.contr.Idx) :
    (d.lhsIdx i q 1).val = (i 1).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_neg (show ¬ (1 : Fin 3) ∈ ([0] : List (Fin 3)) by decide),
    dif_pos (show (1 : Fin 3) ∈ ([1] : List (Fin 3)) from List.mem_singleton.mpr rfl)]
  rfl

/-- The left operand's last coordinate is the contraction's. -/
theorem lhs_contr (h : IsBatchedLast d) (i : (⟨3, ![m, a, b]⟩ : Shape).Idx) (q : d.contr.Idx) :
    (d.lhsIdx i q 2).val = (q ⟨0, by rw [rank_contr_one h]; exact Nat.one_pos⟩).val :=
  d.lhsIdx_val_of_single h.lc i q

/-- The right operand's sample is the output's. -/
theorem rhs_batch (h : IsBatchedLast d) (i : (⟨3, ![m, a, b]⟩ : Shape).Idx) (q : d.contr.Idx) :
    (d.rhsIdx i q 0).val = (i 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_pos (show (0 : Fin 3) ∈ ([0] : List (Fin 3)) from List.mem_singleton.mpr rfl)]
  rfl

/-- The right operand's row is the output's column. -/
theorem rhs_row (h : IsBatchedLast d) (i : (⟨3, ![m, a, b]⟩ : Shape).Idx) (q : d.contr.Idx) :
    (d.rhsIdx i q 1).val = (i 2).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_neg (show ¬ (1 : Fin 3) ∈ ([0] : List (Fin 3)) by decide),
    dif_pos (show (1 : Fin 3) ∈ ([1] : List (Fin 3)) from List.mem_singleton.mpr rfl)]
  rfl

/-- The right operand's last coordinate is the contraction's. -/
theorem rhs_contr (h : IsBatchedLast d) (i : (⟨3, ![m, a, b]⟩ : Shape).Idx) (q : d.contr.Idx) :
    (d.rhsIdx i q 2).val = (q ⟨0, by rw [rank_contr_one h]; exact Nat.one_pos⟩).val :=
  d.rhsIdx_val_of_single h.rc i q

/-- The contraction has the operands' last extent. -/
theorem size_contr (h : IsBatchedLast d) : d.contr.size ⟨0, by rw [rank_contr_one h]; exact Nat.one_pos⟩ = K := by
  obtain ⟨lc, rc, ln, rn, lb, rb, wf⟩ := d
  obtain ⟨h1, h2, h3, h4, h5, h6⟩ := h
  dsimp only at h1 h2 h3 h4 h5 h6
  subst h1 h2 h3 h4 h5 h6
  rfl

/-- The contraction's sum at entry `(p, i, j)` is the sum over `k` of `l (p, i, k) · r (p, j, k)`. -/
theorem sum_contr (h : IsBatchedLast d) (l : (⟨3, ![m, a, K]⟩ : Shape).Idx → EReal) (r : (⟨3, ![m, b, K]⟩ : Shape).Idx → EReal)
    (p : Fin m) (i : Fin a) (j : Fin b) :
    ∑ k : d.contr.Idx, l (d.lhsIdx (ix3 p i j) k) * r (d.rhsIdx (ix3 p i j) k) = ∑ k : Fin K, l (ix3 p i k) * r (ix3 p j k) := by
  have hr := rank_contr_one h
  have hs := size_contr h
  rw [← Equiv.sum_comp (contrEquiv1 d K hr hs).symm]
  refine Finset.sum_congr rfl fun k _ => ?_
  have hk := contrEquiv1_symm_val d K hr hs k
  have el : d.lhsIdx (ix3 p i j) ((contrEquiv1 d K hr hs).symm k) = ix3 p i k :=
    funext fun ax => Fin.ext (by
      match ax with
      | ⟨0, _⟩ => exact lhs_batch h _ _
      | ⟨1, _⟩ => exact lhs_row h _ _
      | ⟨2, _⟩ => exact (lhs_contr h _ _).trans hk)
  have er : d.rhsIdx (ix3 p i j) ((contrEquiv1 d K hr hs).symm k) = ix3 p j k :=
    funext fun ax => Fin.ext (by
      match ax with
      | ⟨0, _⟩ => exact rhs_batch h _ _
      | ⟨1, _⟩ => exact rhs_row h _ _
      | ⟨2, _⟩ => exact (rhs_contr h _ _).trans hk)
  rw [el, er]

/-- The vector unit's batched product into a zero accumulator at entry `(p, i, j)`. -/
theorem matmul_zero_apply {φ₁ φ₂ : FTy} (h : IsBatchedLast d) (prec : Option ContractPrecision)
    (l : FVec Ideal ⟨3, ![m, a, K]⟩ φ₁) (r : FVec Ideal ⟨3, ![m, b, K]⟩ φ₂) (p : Fin m) (i : Fin a) (j : Fin b) :
    matmul d prec l r (constant ⟨3, ![m, a, b]⟩ .f32 0x00000000#32) (ix3 p i j) = ∑ k : Fin K, l (ix3 p i k) * r (ix3 p j k) := by
  simp only [matmul]
  rw [Ideal.matmul_constant_zero_apply]
  exact sum_contr h l r p i j

end Idealize.ShloMosaic.BatchedProduct

end
-- ==== Proof.LibBatchLayouts.lean ====
/-
  Two broadcasts of three-axis arrays, read at an index written by its coordinates.

  A batched computation lays a value that does not depend on the sample across the batch axis, [1, a, b] → [m, a, b], and
  a per-sample row across the rows of that sample's block, [m, 1, b] → [m, n, b]. Read at (p, i, j) the first is the one
  slab at (0, i, j); read at (p, q, j) the second is sample p's row at (p, 0, j). Both are instances of the general rule
  for a broadcast (a unit axis of the operand is read at 0, any other at the result's coordinate), stated for every size
  so that they apply whatever the extents are — an extent that happens to be 1 is covered too, its only coordinate being 0.
-/
import Idealize.ShloMosaic.Lib.Pipeline.Value
import Idealize.ShloMosaic.Lib.ValueIdx

namespace BatchLayouts

open Idealize.ShloMosaic Idealize.ShloMosaic.ValueIdx

variable {α : Type}

/-- A `[1, a, b]` array broadcast to `[m, a, b]` reads, at `(p, i, j)`, the operand's one slab at `(0, i, j)`: the same
    matrix for every sample `p`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[m, 1, b]` array broadcast to `[m, n, b]` reads, at `(p, q, j)`, sample `p`'s one row at `(p, 0, j)`: the same row
    for every row `q` of the sample's block. -/
theorem broadcastTo_m1b_mnb_apply {m n b : ℕ} (v : (⟨3, ![m, 1, b]⟩ : Shape).Idx → α)
    (h : (⟨3, ![m, 1, b]⟩ : Shape).Broadcasts ⟨3, ![m, n, b]⟩) (p : Fin m) (q : Fin n) (j : Fin b) :
    broadcastTo ⟨3, ![m, n, b]⟩ v h (ix3 p q j) = v (ix3 p (0 : Fin 1) j) := by
  refine broadcastTo_apply v h (ix3 p q j) (ix3 p (0 : Fin 1) j) fun ax => ?_
  match ax with
  | ⟨0, _⟩ =>
    show p.val = if m = 1 then 0 else p.val
    split
    · have := p.isLt; omega
    · rfl
  | ⟨1, _⟩ => rfl
  | ⟨2, _⟩ =>
    show j.val = if b = 1 then 0 else j.val
    split
    · have := j.isLt; omega
    · rfl

end BatchLayouts
-- ==== Proof.LibChannelLayouts.lean ====
/-
  A per-channel vector laid out for a channel-major batch, read at an index written by its coordinates.

  A vector of `a` channel values is reshaped to [1, a, 1] — one sample, `a` channels, one position — and that slab is
  laid across `m` samples and `b` positions, [1, a, 1] → [m, a, b]. Read at (0, i, 0) the reshape is the vector at `i`;
  read at (p, i, j) the broadcast is the slab at (0, i, 0): the channel's value for every sample and every position.
  Stated for every size, so an extent that happens to be 1 is covered too (its only coordinate is 0).
-/
import Idealize.ShloMosaic.Lib.Pipeline.Value
import Idealize.ShloMosaic.Lib.ValueIdx

namespace ChannelLayouts

open Idealize.ShloMosaic Idealize.ShloMosaic.ValueIdx

variable {α : Type}

/-- An `[a]` vector reshaped to `[1, a, 1]` reads, at `(u, i, w)`, the vector at `i`. -/
theorem shapeCast_a_1a1_apply {a : ℕ} (v : (⟨1, ![a]⟩ : Shape).Idx → α)
    (h : (⟨1, ![a]⟩ : Shape).ShapeCasts ⟨3, ![1, a, 1]⟩) (u : Fin 1) (i : Fin a) (w : Fin 1) :
    shapeCast ⟨3, ![1, a, 1]⟩ v h (ix3 u i w) = v (ix1 i) :=
  shapeCast_apply v h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A `[1, a, 1]` slab broadcast to `[m, a, b]` reads, at `(p, i, j)`, the slab at `(0, i, 0)`: channel `i`'s value for every
    sample `p` and every position `j`. -/
theorem broadcastTo_1a1_mab_apply {m a b : ℕ} (v : (⟨3, ![1, a, 1]⟩ : Shape).Idx → α)
    (h : (⟨3, ![1, a, 1]⟩ : Shape).Broadcasts ⟨3, ![m, a, b]⟩) (p : Fin m) (i : Fin a) (j : Fin b) :
    broadcastTo ⟨3, ![m, a, b]⟩ v h (ix3 p i j) = v (ix3 (0 : Fin 1) i (0 : Fin 1)) := by
  refine broadcastTo_apply v h (ix3 p i j) (ix3 (0 : Fin 1) i (0 : Fin 1)) fun ax => ?_
  match ax with
  | ⟨0, _⟩ => rfl
  | ⟨1, _⟩ =>
    show i.val = if a = 1 then 0 else i.val
    split
    · have := i.isLt; omega
    · rfl
  | ⟨2, _⟩ => rfl

end ChannelLayouts
-- ==== Proof.LibTransposedProduct.lean ====
/-
  A matrix product with the right operand stored output-major, read at an entry.

  For the dimension numbers of an M×K by N×K product (both operands contracted on their columns, no batch
  axis), the vector unit's product into a zero accumulator and the host's general dot product, read at the
  ideal values at row `p` and column `c`, are both the sum over `k : Fin K` of `l (p, k) · r (c, k)`: the
  contraction's one-axis index set is re-indexed by its coordinate, and the two operand indices at an output
  index are computed axis by axis.
-/
import Idealize.ShloMosaic.PureOps.Ideal.Laws
import Idealize.ShloMosaic.Lib.ValueIdx

noncomputable section

open scoped BigOperators

namespace Idealize.ShloMosaic.TransposedProduct

open Idealize.ShloMosaic Idealize.ShloMosaic.ValueIdx

variable {M K N : Nat}

/-- The left operand's row at an output index is the output's row. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column is the contraction's coordinate. -/
theorem lhs_col (i : (⟨2, ![M, N]⟩ : Shape).Idx) (q : (DotDims.transposedRhs M K N).contr.Idx) :
    ((DotDims.transposedRhs M K N).lhsIdx i q 1).val = (q ⟨0, (DotDims.transposedRhs M K N).rank_contr ▸ Nat.one_pos⟩).val :=
  (DotDims.transposedRhs M K N).lhsIdx_val_of_single rfl i q

/-- The right operand's row at an output index is the output's column. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column is the contraction's coordinate. -/
theorem rhs_col (i : (⟨2, ![M, N]⟩ : Shape).Idx) (q : (DotDims.transposedRhs M K N).contr.Idx) :
    ((DotDims.transposedRhs M K N).rhsIdx i q 1).val = (q ⟨0, (DotDims.transposedRhs M K N).rank_contr ▸ Nat.one_pos⟩).val :=
  (DotDims.transposedRhs M K N).rhsIdx_val_of_single rfl i q

/-- The contraction's sum at entry `(p, c)` is the sum over `k` of `l (p, k) · r (c, k)`. -/
theorem sum_contr (l : (⟨2, ![M, K]⟩ : Shape).Idx → EReal) (r : (⟨2, ![N, K]⟩ : Shape).Idx → EReal) (p : Fin M) (c : Fin N) :
    ∑ k : (DotDims.transposedRhs M K N).contr.Idx,
        l ((DotDims.transposedRhs M K N).lhsIdx (ix2 p c) k) * r ((DotDims.transposedRhs M K N).rhsIdx (ix2 p c) k)
      = ∑ k : Fin K, l (ix2 p k) * r (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row _ _
      | ⟨1, _⟩ => exact (rhs_col _ _).trans hk)
  rw [el, er]

/-- The vector unit's product into a zero accumulator at entry `(p, c)`. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ k : Fin K, l (ix2 p k) * r (ix2 c k) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (c : Fin N) :
    (Host.dotGeneral d prec l r : FVec Ideal ⟨2, ![M, N]⟩ .f32) (ix2 p c) = ∑ k : Fin K, l (ix2 p k) * r (ix2 c k) := by
  subst hd
  simp only [Host.dotGeneral]
  rw [Ideal.dotGeneral_apply]
  exact sum_contr l r p c

end Idealize.ShloMosaic.TransposedProduct

end
-- ==== Proof.Payloads.lean ====
/-
  What the two kernel bodies compute, read at an entry of the output block (at the ideal values).

  The projection body holds a block of 16 samples × 128 positions × 1024 features, the whole 3 × 1024 weight matrix
  and the bias as a [1, 3, 1] slab. It lays the weights across the 16 samples and takes a batched product that
  contracts the feature axis of both operands, so entry (p, o, q) of its [16, 3, 128] result is the sum over the
  features k of W(o, k) · x(p, q, k); the bias slab is laid across samples and positions and added, giving
  + b(0, o, 0). The changes of float format (to bf16 before the product) are the identity on ideal values.

  The final body holds all 512 rows of the normalised activations and 512 rows of the output weights, both with
  1536 columns, and contracts the columns of both: entry (p, c) of its [512, 512] result is the sum over j of
  y(p, j) · W(c, j).
-/
import proofs.«137999_j37039797961005_2_alg».proof.Proof.Gen.KernelIdeal.Skeleton
import proofs.«137999_j37039797961005_2_alg».proof.Proof.LibBatchedProduct
import proofs.«137999_j37039797961005_2_alg».proof.Proof.LibBatchLayouts
import proofs.«137999_j37039797961005_2_alg».proof.Proof.LibChannelLayouts
import proofs.«137999_j37039797961005_2_alg».proof.Proof.LibTransposedProduct
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Embed

open Cert.KernelIdeal Cert.KernelIdeal.Gen
open Idealize.ShloMosaic Idealize.ShloMosaic.ValueIdx

/-- The projection body at entry (p, o, q): the weights' row o against the features of sample p at position q, plus
    the bias of channel o. -/
theorem projection_block_apply (x0 : Vec Ideal S16x128x1024 .f32) (x1 : Vec Ideal S3x1024 .f32) (x2 : Vec Ideal S1x3x1 .f32)
    (p : Fin 16) (o : Fin 3) (q : Fin 128) :
    k0_pay1 (F := Ideal) x0 x1 x2 (ix3 p o q)
      = (∑ k : Fin 1024, x1 (ix2 o k) * x0 (ix3 p q k)) + x2 (ix3 (0 : Fin 1) o (0 : Fin 1)) := by
  show (matmul (F := Ideal) dot_S16x3x1024_S16x128x1024_S16x3x128_2_2_1_1_0_0 none
          (broadcastTo S16x3x1024 (shapeCast S1x3x1024 (shapeCast S1x3x1024 (truncf (F := Ideal) .bf16 x1 bitsLt_bf16_f32) shapeCasts_S3x1024_S1x3x1024) shapeCasts_S1x3x1024_S1x3x1024) broadcasts_S1x3x1024_S16x3x1024)
          (truncf (F := Ideal) .bf16 x0 bitsLt_bf16_f32) (constant (F := Ideal) S16x3x128 .f32 0x00000000#32)) (ix3 p o q)
        + (broadcastTo S16x3x128 (shapeCast S1x3x1 x2 shapeCasts_S1x3x1_S1x3x1) broadcasts_S1x3x1_S16x3x128) (ix3 p o q) = _
  refine congrArg₂ (· + ·) ?_ ?_
  · refine (BatchedProduct.matmul_zero_apply (d := dot_S16x3x1024_S16x128x1024_S16x3x128_2_2_1_1_0_0)
      ⟨rfl, rfl, rfl, rfl, rfl, rfl⟩ none _ _ p o q).trans ?_
    refine Finset.sum_congr rfl fun k _ => ?_
    refine congrArg₂ (· * ·) ?_ rfl
    rw [BatchLayouts.broadcastTo_1ab_mab_apply, shapeCast_self, shapeCast_ab_1ab_apply]
    rfl
  · rw [shapeCast_self]
    exact ChannelLayouts.broadcastTo_1a1_mab_apply _ _ p o q

/-- The final body at entry (p, c): row p of the activations against row c of the weights. -/
theorem head_block_apply (y : Vec Ideal S512x1536 .f32) (w : Vec Ideal S512x1536 .f32) (p : Fin 512) (c : Fin 512) :
    k1_pay1 (F := Ideal) y w (ix2 p c) = ∑ j : Fin 1536, y (ix2 p j) * w (ix2 c j) := by
  show (matmul (F := Ideal) dot_S512x1536_S512x1536_S512x512_1_1_0_0_n_n none
          (truncf (F := Ideal) .bf16 (shapeCast S512x1536 y shapeCasts_S512x1536_S512x1536) bitsLt_bf16_f32)
          (truncf (F := Ideal) .bf16 w bitsLt_bf16_f32) (constant (F := Ideal) S512x512 .f32 0x00000000#32)) (ix2 p c) = _
  refine (TransposedProduct.matmul_zero_apply dot_S512x1536_S512x1536_S512x512_1_1_0_0_n_n rfl none _ _ p c).trans ?_
  refine Finset.sum_congr rfl fun j _ => ?_
  refine congrArg₂ (· * ·) ?_ rfl
  show shapeCast S512x1536 y shapeCasts_S512x1536_S512x1536 (ix2 p j) = _
  rw [shapeCast_self]

end Cert.KernelIdeal.Embed

end
-- ==== Proof.Spec.lean ====
/-
  The two matrix products of the embedding, as functions of whole arrays, entry by entry, on the extended reals.

  `projection x W b` is the per-position linear map laid out channel-major: entry (s, o, q) is the sum over the 1024
  features k of W(o, k) · x(s, q, k), plus the bias of channel o (the bias as a [1, 3, 1] slab, read at (0, o, 0)).
  `head y W` is the final linear map with output-major weights: entry (s, c) is the sum over the 1536 columns j of
  y(s, j) · W(c, j).
-/
import Idealize.ShloMosaic.PureOps.Ideal
import Idealize.ShloMosaic.Lib.ValueIdx

noncomputable section

open scoped BigOperators

namespace MvEmbedding

open Idealize.ShloMosaic Idealize.ShloMosaic.ValueIdx

/-- Entry (s, o, q): the weights' row o against the features of sample s at position q, plus channel o's bias. -/
def projection (x : (⟨3, ![512, 512, 1024]⟩ : Shape).Idx → EReal) (W : (⟨2, ![3, 1024]⟩ : Shape).Idx → EReal)
    (b : (⟨3, ![1, 3, 1]⟩ : Shape).Idx → EReal) : (⟨3, ![512, 3, 512]⟩ : Shape).Idx → EReal :=
  fun i => (∑ k : Fin 1024, W (ix2 (i 1 : Fin 3) k) * x (ix3 (i 0 : Fin 512) (i 2 : Fin 512) k))
    + b (ix3 (0 : Fin 1) (i 1 : Fin 3) (0 : Fin 1))

/-- Entry (s, c): row s of the activations against row c of the weights. -/
def head (y : (⟨2, ![512, 1536]⟩ : Shape).Idx → EReal) (W : (⟨2, ![4096, 1536]⟩ : Shape).Idx → EReal) :
    (⟨2, ![512, 4096]⟩ : Shape).Idx → EReal :=
  fun i => ∑ j : Fin 1536, y (ix2 (i 0 : Fin 512) j) * W (ix2 (i 1 : Fin 4096) j)

end MvEmbedding

end
-- ==== Proof.Arrays.lean ====
/-
  From blocks to arrays: what each kernel region leaves in its output array, as one function of the arrays it reads.

  Both regions store their whole output block once per grid point, every block is written back, and the blocks tile
  the output array, so the array ends at one function of the inputs, index by index, whatever the region's inputs
  held when it was entered.

  The projection region runs over 32 × 4 points. At point (g, h) it reads samples 16g … 16g+15 and positions
  128h … 128h+127 of x (all 1024 features), the whole weight matrix and the whole bias slab, and writes samples
  16g … 16g+15, all 3 channels, positions 128h … 128h+127 of the output. Entry (s, o, q) of the output therefore
  depends on x(s, q, ·), W(o, ·) and the bias of o only: it is `projection` of the three arrays.

  The final region runs over 8 points. At point g it reads all of the activations and rows 512g … 512g+511 of the
  weights and writes columns 512g … 512g+511 of the output, all 512 rows: the output is `head` of the two arrays.
-/
import proofs.«137999_j37039797961005_2_alg».proof.Proof.Gen.KernelIdeal.Frame
import proofs.«137999_j37039797961005_2_alg».proof.Proof.Payloads
import proofs.«137999_j37039797961005_2_alg».proof.Proof.Spec
import Idealize.ShloMosaic.Lib.Pipeline.Value

set_option maxRecDepth 16384

noncomputable section

open scoped BigOperators

namespace Cert.KernelIdeal.Embed

open Cert.KernelIdeal Cert.KernelIdeal.Gen MvEmbedding
open Idealize.ShloMosaic Idealize.ShloMosaic.TcCoe Idealize.ShloMosaic.ValueIdx Idealize.SL.Sem
open Idealize.ShloMosaic.Pipeline (Dat)

theorem zero3 : (![0, 0, 0] : Fin 3 → Nat) = fun _ => 0 := funext fun a => by fin_cases a <;> rfl
theorem zero2 : (![0, 0] : Fin 2 → Nat) = fun _ => 0 := funext fun a => by fin_cases a <;> rfl

/-! ## One point of the projection region -/

/-- At a point whose sample block is `n0` and position block is `n2`: if the loaded x block is x at samples
    16·n0 + ·, positions 128·n2 + ·, and the other two blocks are the whole arrays, then block entry `j` of the body's
    result is `projection` at the array entry with the same offsets. -/
theorem projection_point (x0 : Vec Ideal S16x128x1024 .f32) (x1 : Vec Ideal S3x1024 .f32) (x2 : Vec Ideal S1x3x1 .f32)
    (X : S512x512x1024.Idx → EReal) (W : S3x1024.Idx → EReal) (B : S1x3x1.Idx → EReal) (n0 n2 : Nat)
    (hx : ∀ (u : S16x128x1024.Idx) (u' : S512x512x1024.Idx), (u' 0).val = n0 * 16 + (u 0).val →
      (u' 1).val = n2 * 128 + (u 1).val → (u' 2).val = (u 2).val → x0 u = X u')
    (hw : ∀ u, x1 u = W u) (hb : ∀ u, x2 u = B u)
    (j : S16x3x128.Idx) (i : S512x3x512.Idx) (h0 : (i 0).val = n0 * 16 + (j 0).val) (h1 : (i 1).val = (j 1).val)
    (h2 : (i 2).val = n2 * 128 + (j 2).val) :
    k0_pay1 (F := Ideal) x0 x1 x2 j = projection X W B i := by
  obtain ⟨p, o, q, rfl⟩ : ∃ (p : Fin 16) (o : Fin 3) (q : Fin 128), j = ix3 p o q := ⟨j 0, j 1, j 2, eq_ix3 j⟩
  rw [projection_block_apply]
  have e1 : o = (i 1 : Fin 3) := Fin.ext h1.symm
  show _ = (∑ k : Fin 1024, W (ix2 (i 1 : Fin 3) k) * X (ix3 (i 0 : Fin 512) (i 2 : Fin 512) k))
    + B (ix3 (0 : Fin 1) (i 1 : Fin 3) (0 : Fin 1))
  rw [e1, hb]
  refine congrArg₂ (· + ·) (Finset.sum_congr rfl fun k _ => congrArg₂ (· * ·) (hw _) ?_) rfl
  exact hx _ _ h0 h2 rfl

/-! ## One point of the final region -/

/-- At the point whose column block is `n`: if the first loaded block is the whole activation array and the second is
    rows 512·n + · of the weights, then block entry `j` of the body's result is `head` at row `j 0`, column 512·n + `j 1`. -/
theorem head_point (y w : Vec Ideal S512x1536 .f32) (Y : S512x1536.Idx → EReal) (Wf : S4096x1536.Idx → EReal) (n : Nat)
    (hy : ∀ u, y u = Y u)
    (hw : ∀ (u : S512x1536.Idx) (u' : S4096x1536.Idx), (u' 0).val = n * 512 + (u 0).val → (u' 1).val = (u 1).val → w u = Wf u')
    (j : S512x512.Idx) (i : S512x4096.Idx) (h0 : (i 0).val = (j 0).val) (h1 : (i 1).val = n * 512 + (j 1).val) :
    k1_pay1 (F := Ideal) y w j = head Y Wf i := by
  obtain ⟨p, q, rfl⟩ : ∃ (p : Fin 512) (q : Fin 512), j = ix2 p q := ⟨j 0, j 1, eq_ix2 j⟩
  rw [head_block_apply]
  have e0 : p = (i 0 : Fin 512) := Fin.ext h0.symm
  show _ = ∑ k : Fin 1536, Y (ix2 (i 0 : Fin 512) k) * Wf (ix2 (i 1 : Fin 4096) k)
  rw [e0]
  refine Finset.sum_congr rfl fun k _ => congrArg₂ (· * ·) (hy _) ?_
  exact hw _ _ h1 rfl

variable (V : (c : Dev nD) → (b : Ref sig .tc) → Buf (Elt Ideal) ((c : Thread nD τ).loc b))

/-! ## The projection region: its index maps, what a point writes back, the cover, the array -/

/-- The printed index maps over the 128 points: the x block moves with the output block (samples with samples,
    positions with positions, features whole), the weights and the bias stay, and the output's block indices stay in
    32 × 1 × 4. -/
theorem projection_index_maps : ∀ t : Fin cfg0.N,
    win0_0.index t (0 : Fin 3) = win0_3.index t (0 : Fin 3) ∧ win0_0.index t (1 : Fin 3) = win0_3.index t (2 : Fin 3)
    ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) ≤ 31 ∧ win0_3.index t (1 : Fin 3) = 0 ∧ win0_3.index t (2 : Fin 3) ≤ 3 :=
  (by decide +kernel : ∀ t : Fin grid0.N, _)

/-- Every output block of the 32 × 1 × 4 box is some point's. -/
theorem projection_blocks_onto : ∀ (q0 : Fin 32) (q2 : Fin 4), ∃ t : Fin cfg0.N, win0_3.index t = ![q0.val, 0, q2.val] :=
  (by decide +kernel : ∀ (q0 : Fin 32) (q2 : Fin 4), ∃ t : Fin grid0.N, win0_3.index t = ![q0.val, 0, q2.val])

/-- What point `t` writes back is block `t` of `projection` of the arrays the region finds. -/
theorem projection_flushed (c : Dev nD) (t : Fin cfg0.N) :
    (dat0 V c).flushed 3 t
      = ((cfg0.win 3).blk t).view.read (Elt Ideal) (projection (V c main_arg0) (V c main_arg1) (V c main_v0)) := by
  show (cfg0.win 3).cut (grid0.coords t) ((dat0 V c).after 3 t) = _
  rw [after0_3]
  unfold out0_3
  rw [View.canon_unit_zero zero3]
  simp only [View.ld_unit_zero (S := S16x128x1024) zero3, View.ld_unit_zero (S := S3x1024) zero2, View.ld_unit_zero (S := S1x3x1) zero3]
  obtain ⟨a0, a1, a2, b0, b1, c0, c1, c2, d0, d1, d2⟩ := projection_index_maps t
  funext j
  show k0_pay1 (F := Ideal) (iblk0 V c 0 t) (iblk0 V c 1 t) (iblk0 V c 2 t) j
    = projection (V c main_arg0) (V c main_arg1) (V c main_v0) (((cfg0.win 3).blk t).view.emb j)
  refine projection_point _ _ _ _ _ _ (win0_3.index t (0 : Fin 3)) (win0_3.index t (2 : Fin 3)) ?_ ?_ ?_ j _ ?_ ?_ ?_
  · intro u u' h0 h1 h2
    show V c main_arg0 (((cfg0.win 0).blk t).view.emb u) = V c main_arg0 u'
    refine congrArg _ (funext fun a => Fin.ext ?_)
    match a with
    | ⟨0, _⟩ => show win0_0.index t (0 : Fin 3) * 16 + 1 * (u 0).val = (u' 0).val; omega
    | ⟨1, _⟩ => show win0_0.index t (1 : Fin 3) * 128 + 1 * (u 1).val = (u' 1).val; omega
    | ⟨2, _⟩ => show win0_0.index t (2 : Fin 3) * 1024 + 1 * (u 2).val = (u' 2).val; omega
  · intro u
    show V c main_arg1 (((cfg0.win 1).blk t).view.emb u) = V c main_arg1 u
    refine congrArg _ (funext fun a => Fin.ext ?_)
    match a with
    | ⟨0, _⟩ => show win0_1.index t (0 : Fin 2) * 3 + 1 * (u 0).val = (u 0).val; omega
    | ⟨1, _⟩ => show win0_1.index t (1 : Fin 2) * 1024 + 1 * (u 1).val = (u 1).val; omega
  · intro u
    show V c main_v0 (((cfg0.win 2).blk t).view.emb u) = V c main_v0 u
    refine congrArg _ (funext fun a => Fin.ext ?_)
    match a with
    | ⟨0, _⟩ => show win0_2.index t (0 : Fin 3) * 1 + 1 * (u 0).val = (u 0).val; omega
    | ⟨1, _⟩ => show win0_2.index t (1 : Fin 3) * 3 + 1 * (u 1).val = (u 1).val; omega
    | ⟨2, _⟩ => show win0_2.index t (2 : Fin 3) * 1 + 1 * (u 2).val = (u 2).val; omega
  · show win0_3.index t (0 : Fin 3) * 16 + 1 * (j 0).val = win0_3.index t (0 : Fin 3) * 16 + (j 0).val; omega
  · show win0_3.index t (1 : Fin 3) * 3 + 1 * (j 1).val = (j 1).val; omega
  · show win0_3.index t (2 : Fin 3) * 128 + 1 * (j 2).val = win0_3.index t (2 : Fin 3) * 128 + (j 2).val; omega

/-- An index of the output array is in point `t`'s block iff each coordinate is in the block's range on its axis. -/
theorem projection_mem_block (t : Fin cfg0.N) (i : S512x3x512.Idx) :
    i ∈ ((cfg0.win 3).blk t).view.set ↔ ∀ a : Fin 3, win0_3.index t a * S16x3x128.size a ≤ (i a).val
      ∧ (i a).val < win0_3.index t a * S16x3x128.size a + S16x3x128.size a := by
  show i ∈ ((View.whole main_v1).slice (win0_3.rect t)).set ↔ _
  rw [View.set_slice_whole, Rect.mem_set_unit]
  exact Iff.rfl

/-- Every index of the output array is in some point's block: sample block s / 16, position block q / 128. -/
theorem projection_cover (i : S512x3x512.Idx) :
    ∃ t : Fin cfg0.N, (cfg0.win 3).flush t = true ∧ i ∈ ((cfg0.win 3).blk t).view.set := by
  have hi0 : (i 0).val < 512 := (i 0).isLt
  have hi1 : (i 1).val < 3 := (i 1).isLt
  have hi2 : (i 2).val < 512 := (i 2).isLt
  obtain ⟨t, ht⟩ := projection_blocks_onto ⟨(i 0).val / 16, by omega⟩ ⟨(i 2).val / 128, by omega⟩
  have q0 : win0_3.index t (0 : Fin 3) = (i 0).val / 16 := congrFun ht 0
  have q1 : win0_3.index t (1 : Fin 3) = 0 := congrFun ht 1
  have q2 : win0_3.index t (2 : Fin 3) = (i 2).val / 128 := congrFun ht 2
  refine ⟨t, flush0_3 t, ?_⟩
  rw [projection_mem_block]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 3 ≤ (i 1).val ∧ (i 1).val < win0_3.index t (1 : Fin 3) * 3 + 3; omega
  | ⟨2, _⟩ => show win0_3.index t (2 : Fin 3) * 128 ≤ (i 2).val ∧ (i 2).val < win0_3.index t (2 : Fin 3) * 128 + 128; omega

/-- After its 128 points the projection region's output array is `projection` of the arrays it was entered with. -/
theorem projection_array (c : Dev nD) :
    (dat0 V c).arrAt 3 cfg0.N = projection (V c main_arg0) (V c main_arg1) (V c main_v0) :=
  (dat0 V c).arrAt_eq_of_cover 3 _ (fun t _ => projection_flushed V c t) projection_cover

/-! ## The final region -/

/-- The printed index maps over the 8 points: the activations stay, the weights' row block is the output's column
    block, and the output's block indices stay in 1 × 8. -/
theorem head_index_maps : ∀ t : Fin cfg1.N,
    win1_0.index t (0 : Fin 2) = 0 ∧ win1_0.index t (1 : Fin 2) = 0
    ∧ win1_1.index t (0 : Fin 2) = win1_2.index t (1 : Fin 2) ∧ win1_1.index t (1 : Fin 2) = 0
    ∧ win1_2.index t (0 : Fin 2) = 0 ∧ win1_2.index t (1 : Fin 2) ≤ 7 :=
  (by decide +kernel : ∀ t : Fin grid1.N, _)

/-- Every output block of the 1 × 8 box is some point's. -/
theorem head_blocks_onto : ∀ q1 : Fin 8, ∃ t : Fin cfg1.N, win1_2.index t = ![0, q1.val] :=
  (by decide +kernel : ∀ q1 : Fin 8, ∃ t : Fin grid1.N, win1_2.index t = ![0, q1.val])

/-- What point `t` writes back is block `t` of `head` of the arrays the region finds. -/
theorem head_flushed (c : Dev nD) (t : Fin cfg1.N) :
    (dat1 V c).flushed 2 t = ((cfg1.win 2).blk t).view.read (Elt Ideal) (head (V c main_v26) (V c main_arg5)) := by
  show (cfg1.win 2).cut (grid1.coords t) ((dat1 V c).after 2 t) = _
  rw [after1_2]
  unfold out1_2
  rw [View.canon_unit_zero zero2]
  simp only [View.ld_unit_zero (S := S512x1536) zero2]
  obtain ⟨a0, a1, b0, b1, d0, d1⟩ := head_index_maps t
  funext j
  show k1_pay1 (F := Ideal) (iblk1 V c 0 t) (iblk1 V c 1 t) j
    = head (V c main_v26) (V c main_arg5) (((cfg1.win 2).blk t).view.emb j)
  refine head_point _ _ _ _ (win1_2.index t (1 : Fin 2)) ?_ ?_ j _ ?_ ?_
  · intro u
    show V c main_v26 (((cfg1.win 0).blk t).view.emb u) = V c main_v26 u
    refine congrArg _ (funext fun a => Fin.ext ?_)
    match a with
    | ⟨0, _⟩ => show win1_0.index t (0 : Fin 2) * 512 + 1 * (u 0).val = (u 0).val; omega
    | ⟨1, _⟩ => show win1_0.index t (1 : Fin 2) * 1536 + 1 * (u 1).val = (u 1).val; omega
  · intro u u' h0 h1
    show V c main_arg5 (((cfg1.win 1).blk t).view.emb u) = V c main_arg5 u'
    refine congrArg _ (funext fun a => Fin.ext ?_)
    match a with
    | ⟨0, _⟩ => show win1_1.index t (0 : Fin 2) * 512 + 1 * (u 0).val = (u' 0).val; omega
    | ⟨1, _⟩ => show win1_1.index t (1 : Fin 2) * 1536 + 1 * (u 1).val = (u' 1).val; omega
  · show win1_2.index t (0 : Fin 2) * 512 + 1 * (j 0).val = (j 0).val; omega
  · show win1_2.index t (1 : Fin 2) * 512 + 1 * (j 1).val = win1_2.index t (1 : Fin 2) * 512 + (j 1).val; omega

/-- An index of the output array is in point `t`'s block iff each coordinate is in the block's range on its axis. -/
theorem head_mem_block (t : Fin cfg1.N) (i : S512x4096.Idx) :
    i ∈ ((cfg1.win 2).blk t).view.set ↔ ∀ a : Fin 2, win1_2.index t a * S512x512.size a ≤ (i a).val
      ∧ (i a).val < win1_2.index t a * S512x512.size a + S512x512.size a := by
  show i ∈ ((View.whole main_v27).slice (win1_2.rect t)).set ↔ _
  rw [View.set_slice_whole, Rect.mem_set_unit]
  exact Iff.rfl

/-- Every index of the output array is in some point's block: column block c / 512. -/
theorem head_cover (i : S512x4096.Idx) :
    ∃ t : Fin cfg1.N, (cfg1.win 2).flush t = true ∧ i ∈ ((cfg1.win 2).blk t).view.set := by
  have hi0 : (i 0).val < 512 := (i 0).isLt
  have hi1 : (i 1).val < 4096 := (i 1).isLt
  obtain ⟨t, ht⟩ := head_blocks_onto ⟨(i 1).val / 512, by omega⟩
  have q0 : win1_2.index t (0 : Fin 2) = 0 := congrFun ht 0
  have q1 : win1_2.index t (1 : Fin 2) = (i 1).val / 512 := congrFun ht 1
  refine ⟨t, flush1_2 t, ?_⟩
  rw [head_mem_block]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-- After its 8 points the final region's output array is `head` of the arrays it was entered with. -/
theorem head_array (c : Dev nD) :
    (dat1 V c).arrAt 2 cfg1.N = head (V c main_v26) (V c main_arg5) :=
  (dat1 V c).arrAt_eq_of_cover 2 _ (fun t _ => head_flushed V c t) head_cover

end Cert.KernelIdeal.Embed

end
-- ==== Proof.Normalise.lean ====
/-
  Batch normalisation of a channel-major batch, as the host computes it, as one function of the batch.

  The batch is [512 samples, 3 channels, 512 positions]. Per channel: the mean is the sum over samples and positions
  divided by 262144 = 512 · 512; the batch minus the mean is squared and averaged the same way for the variance;
  the centred batch is multiplied by rsqrt(variance + ε) with ε the float nearest 1e-5, then by the channel's
  scale, and the channel's shift is added; last the three channels of a sample are laid side by side, [512, 1536].
  The function is stated for any float instance: it is the same text on both programs, so equal inputs give equal
  outputs and none of its arithmetic is ever opened.
-/
import Idealize.ShloMosaic.PureOps
import Idealize.ShloMosaic.Lib.StableHlo

noncomputable section

namespace MvEmbedding

open Idealize.ShloMosaic

abbrev Batch : Shape := ⟨3, ![512, 3, 512]⟩
abbrev PerChannel : Shape := ⟨1, ![3]⟩
abbrev Slab : Shape := ⟨3, ![1, 3, 1]⟩
abbrev Scalar0 : Shape := ⟨0, ![]⟩
abbrev Flat : Shape := ⟨2, ![512, 1536]⟩

theorem batch_reduces : Batch.ReducesTo [0, 2] PerChannel := by decide
theorem scalar_pos : 0 < Scalar0.numel := by decide
theorem channel_to_slab : PerChannel.BroadcastsInDim Slab (![1] : Fin 1 → Fin Slab.rank) := by decide
theorem scalar_to_slab : Scalar0.BroadcastsInDim Slab (![] : Fin 0 → Fin Slab.rank) := by decide
theorem slab_to_batch : Slab.BroadcastsInDim Batch (![0, 1, 2] : Fin 3 → Fin Batch.rank) := by decide
theorem batch_flattens : Batch.ShapeCasts Flat := by decide

variable {F : FTy → Type} [FloatOps F]

/-- A per-channel sum over samples and positions, divided by their number, as a [1, 3, 1] slab. -/
def channelAverage (y : (⟨Batch, .f32⟩ : BufTy).Contents (Elt F)) : (⟨Slab, .f32⟩ : BufTy).Contents (Elt F) :=
  Host.divf (broadcastInDim Slab ![1] channel_to_slab (Host.reduceAdd y (constant Scalar0 .f32 0x00000000#32) batch_reduces scalar_pos))
    (broadcastInDim Slab ![] scalar_to_slab (constant Scalar0 .f32 0x48800000#32))

/-- The batch minus its per-channel mean. -/
def centred (y : (⟨Batch, .f32⟩ : BufTy).Contents (Elt F)) : (⟨Batch, .f32⟩ : BufTy).Contents (Elt F) :=
  subf y (broadcastInDim Batch ![0, 1, 2] slab_to_batch (channelAverage y))

/-- Normalise per channel, scale, shift, and lay each sample's channels side by side. -/
def normalise (y : (⟨Batch, .f32⟩ : BufTy).Contents (Elt F)) (scale shift : (⟨PerChannel, .f32⟩ : BufTy).Contents (Elt F)) :
    (⟨Flat, .f32⟩ : BufTy).Contents (Elt F) :=
  shapeCast _
    (addf
      (mulf
        (mulf (centred y)
          (broadcastInDim Batch ![0, 1, 2] slab_to_batch
            (Host.rsqrt (addf (channelAverage (mulf (centred y) (centred y)))
              (broadcastInDim Slab ![] scalar_to_slab (constant Scalar0 .f32 0x3727C5AC#32))))))
        (broadcastInDim Batch ![0, 1, 2] slab_to_batch (broadcastInDim Slab ![1] channel_to_slab scale)))
      (broadcastInDim Batch ![0, 1, 2] slab_to_batch (broadcastInDim Slab ![1] channel_to_slab shift)))
    batch_flattens

end MvEmbedding

end
-- ==== Proof.NamedRun.lean ====
/-
  The kernel program's run with its result named.

  The program is four segments: one host reshape, the projection kernel over a 32 × 4 grid, the batch-norm
  statistics and normalisation on the host, and the final matrix product over 8 column blocks. Every segment's
  effect on the buffers is a function of the buffers before it, so the buffers at the end are a fold from the
  launch memory: after the last region its output array holds what the region's write-backs leave, and every
  other buffer what it held when the region was entered. Here that fold is read at the result buffer: every
  weakly fair execution ends with the result at the last region's output array after its 8 points, and the six
  arguments as launched.
-/
import proofs.«137999_j37039797961005_2_alg».proof.Proof.Gen.KernelIdeal.Frame

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the last region's output array: at the end it holds what that region's write-backs leave. -/
theorem result_is_last_output (c : Dev nD) :
    W4 m ρ c (Proc.devRef .tc main_v27) = (dat1 (V3 m ρ) c).arrAt 2 cfg1.N :=
  W4_arr m ρ c 2

set_option backward.isDefEq.respectTransparency.types false in
/-- Every weakly fair execution of the program terminates, nothing faulting; the result buffer ends at the last
    region's output array after its last point, and each argument as launched. -/
theorem run_named : θ_run defs (onTc (τ := τ) (main (F := F))) ⟨m, fun _ => 0, ρ⟩ (fun r => ∀ c : Dev nD,
      r.2.mem ((c.tc : Thread nD τ).loc main_v27) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v27 (by decide))).trans (result_is_last_output m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Embed

end
-- ==== Proof.KernelValue.lean ====
/-
  The kernel program's result as the specification's three stages.

  Before the projection region the host reshapes the bias [3] → [1, 3, 1]; x and the weights are as launched. The
  region leaves `projection` of those three in its output array and touches nothing else. Between the regions the
  host computes the per-channel statistics, normalises, scales, shifts and flattens: `normalise` of that array and
  of the launch-time scale and shift. The final region is entered with that and the output weights as launched, and
  leaves `head` of the two in the result array.
-/
import proofs.«137999_j37039797961005_2_alg».proof.Proof.Gen.KernelIdeal.Frame
import proofs.«137999_j37039797961005_2_alg».proof.Proof.Arrays
import proofs.«137999_j37039797961005_2_alg».proof.Proof.Normalise
import proofs.«137999_j37039797961005_2_alg».proof.Proof.NamedRun
import Idealize.ShloMosaic.Lib.StableHlo.Run

set_option maxRecDepth 16384

noncomputable section

namespace Cert.KernelIdeal.Embed

open Cert.KernelIdeal Cert.KernelIdeal.Gen MvEmbedding
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## Entering the projection region -/

theorem x_at_projection (c : Dev nD) : V1 m ρ c main_arg0 = m ((c : Thread nD τ).loc main_arg0) := by
  show StableHlo.after hostOps0 (W0 m ρ c) (Proc.devRef .tc main_arg0) = _
  after_results

theorem weights_at_projection (c : Dev nD) : V1 m ρ c main_arg1 = m ((c : Thread nD τ).loc main_arg1) := by
  show StableHlo.after hostOps0 (W0 m ρ c) (Proc.devRef .tc main_arg1) = _
  after_results

/-- The bias slab the region reads is the bias vector reshaped. -/
theorem slab_at_projection (c : Dev nD) :
    (V1 m ρ c main_v0 : S1x3x1.Idx → EReal) = shapeCast S1x3x1 (m ((c : Thread nD τ).loc main_arg2)) shapeCasts_S3_S1x3x1 := by
  show StableHlo.after hostOps0 (W0 m ρ c) (Proc.devRef .tc main_v0) = _
  after_results
  rfl

/-! ## Leaving the projection region -/

/-- The region's output array after its last point. -/
theorem batch_after_projection (c : Dev nD) :
    (W2 m ρ c (Proc.devRef .tc main_v1) : S512x3x512.Idx → EReal)
      = projection (m ((c : Thread nD τ).loc main_arg0)) (m ((c : Thread nD τ).loc main_arg1))
          (shapeCast S1x3x1 (m ((c : Thread nD τ).loc main_arg2)) shapeCasts_S3_S1x3x1) := by
  rw [show (W2 m ρ c (Proc.devRef .tc main_v1) : S512x3x512.Idx → EReal) = (dat0 (V1 m ρ) c).arrAt 3 cfg0.N from W2_arr m ρ c 3,
    projection_array, x_at_projection, weights_at_projection, slab_at_projection]

/-- The scale, the shift and the output weights are no array of the region and no result of the reshape. -/
theorem scale_after_projection (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

theorem shift_after_projection (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

theorem out_weights_after_projection (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-! ## Entering the final region -/

/-- The flattened activations the final region reads: the host's stretch between the regions is `normalise`. -/
theorem flat_at_head (c : Dev nD) :
    (V3 m ρ c main_v26 : S512x1536.Idx → EReal)
      = normalise (F := Ideal) (W2 m ρ c (Proc.devRef .tc main_v1)) (W2 m ρ c (Proc.devRef .tc main_arg3)) (W2 m ρ c (Proc.devRef .tc main_arg4)) := by
  show StableHlo.after hostOps1 (W2 m ρ c) (Proc.devRef .tc main_v26) = _
  after_results_simp
  rfl

theorem out_weights_at_head (c : Dev nD) : V3 m ρ c main_arg5 = W2 m ρ c (Proc.devRef .tc main_arg5) := by
  show StableHlo.after hostOps1 (W2 m ρ c) (Proc.devRef .tc main_arg5) = _
  after_results_simp

/-! ## The result -/

/-- The final region's output array after its last point, as a function of the six arguments. -/
theorem value (c : Dev nD) :
    ((dat1 (V3 m ρ) c).arrAt 2 cfg1.N : S512x4096.Idx → EReal)
      = head (normalise (F := Ideal)
          (projection (m ((c : Thread nD τ).loc main_arg0)) (m ((c : Thread nD τ).loc main_arg1))
            (shapeCast S1x3x1 (m ((c : Thread nD τ).loc main_arg2)) shapeCasts_S3_S1x3x1))
          (m ((c : Thread nD τ).loc main_arg3)) (m ((c : Thread nD τ).loc main_arg4)))
        (m ((c : Thread nD τ).loc main_arg5)) := by
  rw [head_array, flat_at_head, out_weights_at_head, batch_after_projection, scale_after_projection,
    shift_after_projection, out_weights_after_projection]

/-- Every weakly fair execution of the kernel program ends with the result at `head ∘ normalise ∘ projection` of the
    arguments, and the arguments as launched. -/
theorem run : θ_run defs (onTc (τ := τ) (main (F := Ideal))) ⟨m, fun _ => 0, ρ⟩ (fun r => ∀ c : Dev nD,
      r.2.mem ((c.tc : Thread nD τ).loc main_v27)
        = head (normalise (F := Ideal)
            (projection (m ((c.tc : Thread nD τ).loc main_arg0)) (m ((c.tc : Thread nD τ).loc main_arg1))
              (shapeCast S1x3x1 (m ((c.tc : Thread nD τ).loc main_arg2)) shapeCasts_S3_S1x3x1))
            (m ((c.tc : Thread nD τ).loc main_arg3)) (m ((c.tc : Thread nD τ).loc main_arg4)))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (run_named m ρ)

end Cert.KernelIdeal.Embed

end
-- ==== Proof.ReferenceValue.lean ====
/-
  The reference program's result as the specification's three stages.

  The reference contracts the features of x against the rows of the weights into [sample, position, channel], adds
  the bias along the channel axis and swaps positions and channels: at (s, o, q) that is the sum over k of
  x(s, q, k) · W(o, k) plus b(o) — `projection`, once each product is commuted. The statistics, normalisation and
  flattening that follow are `normalise` word for word. The last product contracts the flattened activations'
  columns against the rows of the transposed weights: at (s, c) the sum over j of y(s, j) · W(c, j) — `head`.
-/
import proofs.«137999_j37039797961005_2_alg».proof.Proof.Gen.ReferenceIdeal.Read
import proofs.«137999_j37039797961005_2_alg».proof.Proof.Spec
import proofs.«137999_j37039797961005_2_alg».proof.Proof.Normalise
import Idealize.ShloMosaic.Lib.ValueIdx

noncomputable section

open scoped BigOperators

namespace Cert.ReferenceIdeal.Embed

open Cert.ReferenceIdeal Cert.ReferenceIdeal.Read MvEmbedding
open Idealize.ShloMosaic Idealize.ShloMosaic.ValueIdx

/-- The reference's channel-major pre-normalisation batch is `projection`, for any [1, 3, 1] slab `B` holding the bias
    (entry (0, o, 0) = b(o)): multiplication of extended reals commutes, and the sums run over the same features. -/
theorem batch_eq (x0 : (⟨S512x512x1024, .f32⟩ : BufTy).Contents (Elt Ideal)) (x1 : (⟨S3x1024, .f32⟩ : BufTy).Contents (Elt Ideal))
    (x2 : (⟨S3, .f32⟩ : BufTy).Contents (Elt Ideal)) (B : (⟨3, ![1, 3, 1]⟩ : Shape).Idx → EReal)
    (hB : ∀ o : Fin 3, B (ix3 (0 : Fin 1) o (0 : Fin 1)) = x2 (ix1 o)) :
    val_main_v4 (F := Ideal) x0 x1 x2 = projection x0 x1 B := by
  funext i
  obtain ⟨s, o, q, rfl⟩ : ∃ (s : Fin 512) (o : Fin 3) (q : Fin 512), i = ix3 s o q := ⟨i 0, i 1, i 2, eq_ix3 i⟩
  rw [val_main_v4_apply, val_main_v3_apply, val_main_v0_apply, val_main_v2_apply, val_main_v1_apply]
  show (∑ k : Fin 1024, x0 (lidx_main_v0 (idx_main_v4 (ix3 s o q)) k) * x1 (ridx_main_v0 (idx_main_v4 (ix3 s o q)) k))
      + x2 (idx_main_v1 (idx_main_v2 (idx_main_v4 (ix3 s o q))))
    = (∑ k : Fin 1024, x1 (ix2 o k) * x0 (ix3 s q k)) + B (ix3 (0 : Fin 1) o (0 : Fin 1))
  rw [hB]
  refine congrArg₂ (· + ·) (Finset.sum_congr rfl fun k _ => ?_) ?_
  · rw [mul_comm]
    refine congrArg₂ (· * ·) (congrArg x1 ?_) (congrArg x0 ?_)
    · funext a
      match a with
      | ⟨0, _⟩ => exact Fin.ext rfl
      | ⟨1, _⟩ => exact Fin.ext rfl
    · funext a
      match a with
      | ⟨0, _⟩ => exact Fin.ext rfl
      | ⟨1, _⟩ => exact Fin.ext rfl
      | ⟨2, _⟩ => exact Fin.ext rfl
  · refine congrArg x2 (funext fun a => ?_)
    match a with
    | ⟨0, _⟩ => exact Fin.ext rfl

/-- The reference's flattened activations are `normalise` of its pre-normalisation batch: the same operations. -/
theorem flat_eq {F : FTy → Type} [FloatOps F] (x0 : (⟨S512x512x1024, .f32⟩ : BufTy).Contents (Elt F)) (x1 : (⟨S3x1024, .f32⟩ : BufTy).Contents (Elt F))
    (x2 x3 x4 : (⟨S3, .f32⟩ : BufTy).Contents (Elt F)) :
    val_main_v29 (F := F) x0 x1 x2 x3 x4 = normalise (val_main_v4 (F := F) x0 x1 x2) x3 x4 := rfl

/-- The reference's result is `head` of its flattened activations and the output weights. -/
theorem result_eq (x0 : (⟨S512x512x1024, .f32⟩ : BufTy).Contents (Elt Ideal)) (x1 : (⟨S3x1024, .f32⟩ : BufTy).Contents (Elt Ideal))
    (x2 x3 x4 : (⟨S3, .f32⟩ : BufTy).Contents (Elt Ideal)) (x5 : (⟨S4096x1536, .f32⟩ : BufTy).Contents (Elt Ideal)) :
    val_main_v31 (F := Ideal) x0 x1 x2 x3 x4 x5 = head (val_main_v29 (F := Ideal) x0 x1 x2 x3 x4) x5 := by
  funext i
  obtain ⟨s, c, rfl⟩ : ∃ (s : Fin 512) (c : Fin 4096), i = ix2 s c := ⟨i 0, i 1, eq_ix2 i⟩
  rw [val_main_v31_apply]
  show _ = ∑ j : Fin 1536, val_main_v29 (F := Ideal) x0 x1 x2 x3 x4 (ix2 s j) * x5 (ix2 c j)
  refine Finset.sum_congr rfl fun k _ => congrArg₂ (· * ·) (congrArg _ ?_) ?_
  · funext a
    match a with
    | ⟨0, _⟩ => exact Fin.ext rfl
    | ⟨1, _⟩ => exact Fin.ext rfl
  · rw [val_main_v30_apply]
    refine congrArg x5 (funext fun a => ?_)
    match a with
    | ⟨0, _⟩ => exact Fin.ext rfl
    | ⟨1, _⟩ => exact Fin.ext rfl

/-- The reference's result as the three stages of the specification, for any slab `B` holding the bias. -/
theorem value (x0 : (⟨S512x512x1024, .f32⟩ : BufTy).Contents (Elt Ideal)) (x1 : (⟨S3x1024, .f32⟩ : BufTy).Contents (Elt Ideal))
    (x2 x3 x4 : (⟨S3, .f32⟩ : BufTy).Contents (Elt Ideal)) (x5 : (⟨S4096x1536, .f32⟩ : BufTy).Contents (Elt Ideal))
    (B : (⟨3, ![1, 3, 1]⟩ : Shape).Idx → EReal) (hB : ∀ o : Fin 3, B (ix3 (0 : Fin 1) o (0 : Fin 1)) = x2 (ix1 o)) :
    val_main_v31 (F := Ideal) x0 x1 x2 x3 x4 x5 = head (normalise (F := Ideal) (projection x0 x1 B) x3 x4) x5 := by
  rw [result_eq, flat_eq, batch_eq x0 x1 x2 B hB]

end Cert.ReferenceIdeal.Embed

end
-- ==== Proof.lean ====
/-
  A per-position linear embedding, batch-normalised per channel, flattened and mapped by a final linear layer:
  the tiled kernel program against the plain reference, equal as extended reals.

  Both programs compute `head (normalise (projection x W b) γ β) W'`, where `projection` sends each position's 1024
  features to 3 channels (channel-major, [512, 3, 512]), `normalise` is batch normalisation over samples and positions
  with scale γ and shift β followed by laying a sample's channels side by side, and `head` multiplies by the
  output-major weights W'.

  The kernel program computes `projection` in 32 × 4 blocks (16 samples × 128 positions each) by a batched product
  with the weights as the LEFT factor, W(o, k) · x(s, q, k), `normalise` on the host, and `head` in 8 column blocks.
  The reference contracts x against the weights with x as the left factor, x(s, q, k) · W(o, k), swaps positions
  and channels, runs the same host operations, and multiplies by the transposed output weights. The two agree
  entry by entry: products of extended reals commute, the sums run over the same index sets, the blocks tile the
  arrays, and the normalisation is the same function of equal inputs. No finiteness of the inputs is used.

  The kernel's word-level program differs from its idealisation in nothing the idealisation rewrites (the ledger is
  empty), so that conjunct is trivial; the three frames are the generated ones, the reference's read off its run.
-/
import proofs.«137999_j37039797961005_2_alg».proof.Defs
import proofs.«137999_j37039797961005_2_alg».proof.Proof.Gen.Kernel
import proofs.«137999_j37039797961005_2_alg».proof.Proof.Gen.Kernel.Skeleton
import proofs.«137999_j37039797961005_2_alg».proof.Proof.Gen.Kernel.Launch
import proofs.«137999_j37039797961005_2_alg».proof.Proof.Gen.Kernel.Points
import proofs.«137999_j37039797961005_2_alg».proof.Proof.Gen.Kernel.Frame
import proofs.«137999_j37039797961005_2_alg».proof.Proof.Gen.KernelIdeal
import proofs.«137999_j37039797961005_2_alg».proof.Proof.Gen.KernelIdeal.Skeleton
import proofs.«137999_j37039797961005_2_alg».proof.Proof.Gen.KernelIdeal.Launch
import proofs.«137999_j37039797961005_2_alg».proof.Proof.Gen.KernelIdeal.Points
import proofs.«137999_j37039797961005_2_alg».proof.Proof.Gen.KernelIdeal.Frame
import proofs.«137999_j37039797961005_2_alg».proof.Proof.Gen.ReferenceIdeal
import proofs.«137999_j37039797961005_2_alg».proof.Proof.Gen.Pre_finite_inputs
import proofs.«137999_j37039797961005_2_alg».proof.Proof.Gen.ReferenceIdeal.Run
import proofs.«137999_j37039797961005_2_alg».proof.Proof.Gen.ReferenceIdeal.Read
import proofs.«137999_j37039797961005_2_alg».proof.Proof.KernelValue
import proofs.«137999_j37039797961005_2_alg».proof.Proof.ReferenceValue
import proofs.«137999_j37039797961005_2_alg».proof.Proof.LibChannelLayouts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the six arguments both programs end at `head (normalise (projection x W b) γ β) W'`:
    the kernel by its blocks and the host stretch between its regions, the reference stage by stage; the bias slab the
    kernel reads is the bias vector reshaped, entry (0, o, 0) = b(o). -/
theorem algebraic : Cert.algebraic_KernelIdeal_ReferenceIdeal := by
  intro m ρ m' ρ' _ hagree
  refine ⟨_, Cert.KernelIdeal.Embed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq,
    Cert.ReferenceIdeal.Embed.value _ _ _ _ _ _
      (shapeCast Cert.KernelIdeal.S1x3x1 (m' ((c.tc : Thread Cert.ReferenceIdeal.nD Cert.ReferenceIdeal.τ).loc Cert.ReferenceIdeal.main_arg2)) Cert.KernelIdeal.Facts₀.shapeCasts_S3_S1x3x1)
      (fun o => ChannelLayouts.shapeCast_a_1a1_apply _ _ 0 o 0),
    (hagree c).1, (hagree c).2.1, (hagree c).2.2.1, (hagree c).2.2.2.1, (hagree c).2.2.2.2.1, (hagree c).2.2.2.2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernel_ideal, Cert.Proof.frame_reference_ideal, Cert.Proof.preserves,
    Cert.Proof.algebraic⟩

end
